-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2000 : Shape := ⟨2, ![100000, 2000]⟩
abbrev S2000x64 : Shape := ⟨2, ![2000, 64]⟩
abbrev S64 : Shape := ⟨1, ![64]⟩
abbrev S64x64 : Shape := ⟨2, ![64, 64]⟩
abbrev S64x20 : Shape := ⟨2, ![64, 20]⟩
abbrev S20 : Shape := ⟨1, ![20]⟩
abbrev S2x3200000 : Shape := ⟨2, ![2, 3200000]⟩
abbrev S100000 : Shape := ⟨1, ![100000]⟩
abbrev S_ : Shape := ⟨0, ![]⟩

class Facts : Prop where
  bcast_S_S100000x2000 : S_.BroadcastsInDim S100000x2000 (![] : Fin 0 → Fin S100000x2000.rank)
  reducesTo_S100000x2000_S_d0_1 : S100000x2000.ReducesTo [0, 1] S_
  h_S_ : 0 < S_.numel
  bcast_S_S2000x64 : S_.BroadcastsInDim S2000x64 (![] : Fin 0 → Fin S2000x64.rank)
  reducesTo_S2000x64_S_d0_1 : S2000x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x20 : S_.BroadcastsInDim S64x20 (![] : Fin 0 → Fin S64x20.rank)
  reducesTo_S64x20_S_d0_1 : S64x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg4 : FVec F S64 .f32) (main_arg5 : FVec F S64x20 .f32) (main_arg6 : FVec F S20 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x20 .f32 := Host.absf main_arg5
  let main_cst_8 : FVec F S_ .f32 := constant S_ .f32 0x7F800000#32
  let main_v25 : FVec F S64x20 .f32 := broadcastInDim S64x20 ![] bcast_S_S64x20 main_cst_8
  let main_v26 : IVec S64x20 1 := cmpf .olt main_v24 main_v25
  let main_c_9 : IVec S_ 1 := constantI S_ 1 1#1
  let main_v27 : IVec S_ 1 := (fun x v => Host.reduce IntOp.andi x v reducesTo_S64x20_S_d0_1 h_S_) main_v26 main_c_9
  let main_v28 : IVec S_ 1 := andi main_v23 main_v27
  let main_v29 : FVec F S20 .f32 := Host.absf main_arg6
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  main_v33

def fn {F : FTy → Type} [FloatOps F] (main_arg0 : FVec F S100000x2000 .f32) (main_arg1 : FVec F S2000x64 .f32) (main_arg2 : FVec F S64 .f32) (main_arg3 : FVec F S64x64 .f32) (main_arg4 : FVec F S64 .f32) (main_arg5 : FVec F S64x20 .f32) (main_arg6 : FVec F S20 .f32) (main_arg7 : IVec S2x3200000 32) (main_arg8 : IVec S100000 32) : IVec S_ 1 :=
  let main_v0 : FVec F S100000x2000 .f32 := Host.absf main_arg0
  let main_cst : FVec F S_ .f32 := constant S_ .f32 0x7F800000#32
  let main_v1 : FVec F S100000x2000 .f32 := broadcastInDim S100000x2000 ![] bcast_S_S100000x2000 main_cst
  let main_v2 : IVec S100000x2000 1 := cmpf .olt main_v0 main_v1
  let main_c : IVec S_ 1 := constantI S_ 1 1#1
  let main_v3 : IVec S_ 1 := (fun x v => Host.reduce IntOp.andi x v reducesTo_S100000x2000_S_d0_1 h_S_) main_v2 main_c
  let main_v4 : FVec F S2000x64 .f32 := Host.absf main_arg1
  let main_cst_0 : FVec F S_ .f32 := constant S_ .f32 0x7F800000#32
  let main_v5 : FVec F S2000x64 .f32 := broadcastInDim S2000x64 ![] bcast_S_S2000x64 main_cst_0
  let main_v6 : IVec S2000x64 1 := cmpf .olt main_v4 main_v5
  let main_c_1 : IVec S_ 1 := constantI S_ 1 1#1
  let main_v7 : IVec S_ 1 := (fun x v => Host.reduce IntOp.andi x v reducesTo_S2000x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x2000 : Shape := ⟨2, ![100000, 2000]⟩
abbrev S2000x64 : Shape := ⟨2, ![2000, 64]⟩
abbrev S64 : Shape := ⟨1, ![64]⟩
abbrev S64x64 : Shape := ⟨2, ![64, 64]⟩
abbrev S64x20 : Shape := ⟨2, ![64, 20]⟩
abbrev S20 : Shape := ⟨1, ![20]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S100000x64 : Shape := ⟨2, ![100000, 64]⟩
abbrev S1000x2000 : Shape := ⟨2, ![1000, 2000]⟩
abbrev S1000x64 : Shape := ⟨2, ![1000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S128x64 : Shape := ⟨2, ![128, 64]⟩
abbrev S128 : Shape := ⟨1, ![128]⟩
abbrev S128x1 : Shape := ⟨2, ![128, 1]⟩
abbrev S128x20 : Shape := ⟨2, ![128, 20]⟩
abbrev S1x20 : Shape := ⟨2, ![1, 20]⟩

abbrev nBuf : Space → Nat
  | .hbm => 162
  | .vmem => 10
  | .smem => 0
  | _ => 0

abbrev hbmTy0_0 (i : Nat) : BufTy := match i % 128 with
  | 0 => ⟨S100000x2000, .f32⟩
  | 1 => ⟨S2000x64, .f32⟩
  | 2 => ⟨S64, .f32⟩
  | 3 => ⟨S64x64, .f32⟩
  | 4 => ⟨S64, .f32⟩
  | 5 => ⟨S64x20, .f32⟩
  | 6 => ⟨S20, .f32⟩
  | 7 => ⟨S2x3200000, .i32⟩
  | 8 => ⟨S100000, .i32⟩
  | 9 => ⟨S1x3200000, .i32⟩
  | 10 => ⟨S3200000, .i32⟩
  | 11 => ⟨S1x3200000, .i32⟩
  | 12 => ⟨S3200000, .i32⟩
  | 13 => ⟨S100000x64, .f32⟩
  | 14 => ⟨S_, .f32⟩
  | 15 => ⟨S3200000, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x64, .f32⟩
  | 52 => ⟨S3200000x1, .f32⟩
  | 53 => ⟨S3200000x64, .f32⟩
  | 54 => ⟨S3200000x64, .f32⟩
  | 55 => ⟨S_, .f32⟩
  | 56 => ⟨S100000x64, .f32⟩
  | 57 => ⟨S3200000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .f32⟩
  | 72 => ⟨S3200000, .f32⟩
  | 73 => ⟨S_, .f32⟩
  | 74 => ⟨S100000, .f32⟩
  | 75 => ⟨S3200000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000, .f32⟩
  | 99 => ⟨S3200000, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x64, .f32⟩
  | 109 => ⟨S3200000x1, .f32⟩
  | 110 => ⟨S3200000x64, .f32⟩
  | 111 => ⟨S3200000x64, .f32⟩
  | 112 => ⟨S_, .f32⟩
  | 113 => ⟨S100000x64, .f32⟩
  | 114 => ⟨S3200000x1, .i32⟩
  | 115 => ⟨S100000x64, .f32⟩
  | 116 => ⟨S100000, .f32⟩
  | 117 => ⟨S100000x1, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .f32⟩
  | _ => ⟨S100000x2000, .f32⟩

abbrev hbmTy0_1 (i : Nat) : BufTy := match i % 128 with
  | 0 => ⟨S128x64, .f32⟩
  | 1 => ⟨S100000x1, .i32⟩
  | 2 => ⟨S128x64, .f32⟩
  | 3 => ⟨S_, .f32⟩
  | 4 => ⟨S100000, .f32⟩
  | 5 => ⟨S_, .f32⟩
  | 6 => ⟨S128, .f32⟩
  | 7 => ⟨S100000x1, .i32⟩
  | 8 => ⟨S128, .f32⟩
  | 9 => ⟨S_, .f32⟩
  | 10 => ⟨S128, .f32⟩
  | 11 => ⟨S128, .f32⟩
  | 12 => ⟨S128x1, .f32⟩
  | 13 => ⟨S128x64, .f32⟩
  | 14 => ⟨S128x64, .f32⟩
  | 15 => ⟨S128x20, .f32⟩
  | 16 => ⟨S1x20, .f32⟩
  | 17 => ⟨S128x20, .f32⟩
  | 18 => ⟨S128x20, .f32⟩
  | 19 => ⟨S_, .f32⟩
  | 20 => ⟨S128, .f32⟩
  | 21 => ⟨S_, .f32⟩
  | 22 => ⟨S128, .f32⟩
  | 23 => ⟨S128, .f32⟩
  | 24 => ⟨S128x1, .f32⟩
  | 25 => ⟨S128x20, .f32⟩
  | 26 => ⟨S128x20, .f32⟩
  | 27 => ⟨S128x20, .f32⟩
  | 28 => ⟨S_, .f32⟩
  | 29 => ⟨S128, .f32⟩
  | 30 => ⟨S128x1, .f32⟩
  | 31 => ⟨S128x1, .f32⟩
  | 32 => ⟨S128x20, .f32⟩
  | 33 => ⟨S128x20, .f32⟩
  | _ => ⟨S100000x2000, .f32⟩

abbrev hbmTy (i : Nat) : BufTy := match i / 128 with
  | 0 => hbmTy0_0 i
  | 1 => hbmTy0_1 i
  | _ => ⟨S100000x2000, .f32⟩

abbrev bufTy : (tb : Table) → Fin (tcTables nBuf tb) → BufTy
  | .hbm, ⟨i, _⟩ => hbmTy i
  | .local _ .vmem, ⟨0, _⟩ => ⟨S1000x2000, .f32⟩
  | .local _ .vmem, ⟨1, _⟩ => ⟨S1000x2000, .f32⟩
  | .local _ .vmem, ⟨2, _⟩ => ⟨S2000x64, .f32⟩
  | .local _ .vmem, ⟨3, _⟩ => ⟨S1000x64, .f32⟩
  | .local _ .vmem, ⟨4, _⟩ => ⟨S1000x64, .f32⟩
  | .local _ .vmem, ⟨5, _⟩ => ⟨S1000x64, .f32⟩
  | .local _ .vmem, ⟨6, _⟩ => ⟨S1000x64, .f32⟩
  | .local _ .vmem, ⟨7, _⟩ => ⟨S64x64, .f32⟩
  | .local _ .vmem, ⟨8, _⟩ => ⟨S1000x64, .f32⟩
  | .local _ .vmem, ⟨9, _⟩ => ⟨S1000x64, .f32⟩
  | _, _ => ⟨S100000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_call2_cst : Ref sig .tc := ⟨.hbm, 147, rfl⟩
abbrev main_call2_v0 : Ref sig .tc := ⟨.hbm, 148, rfl⟩
abbrev main_call2_cst_0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_cst_1 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_v110 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S1000x2000_S1000x2000_0_0 : ∀ a, (![0, 0] : Fin 2 → Nat) a + S1000x2000.size a ≤ S1000x2000.size a
  h_S1000x2000 : 0 < S1000x2000.numel
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  inb_S1000x64_S1000x64_0_0 : ∀ a, (![0, 0] : Fin 2 → Nat) a + S1000x64.size a ≤ S1000x64.size a
  h_S1000x64 : 0 < S1000x64.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S1000x64_S1000x64 : S1000x64.ShapeCasts S1000x64
  inb_S64x64_S64x64_0_0 : ∀ a, (![0, 0] : Fin 2 → Nat) a + S64x64.size a ≤ S64x64.size a
  h_S64x64 : 0 < S64x64.numel
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S20_S1x20_1 : S20.BroadcastsInDim S1x20 (![1] : Fin 1 → Fin S1x20.rank)
  bcast_S1x20_S128x20_0_1 : S1x20.BroadcastsInDim S128x20 (![0, 1] : Fin 2 → Fin S128x20.rank)
  reducesTo_S128x20_S128_d1 : S128x20.ReducesTo [1] S128
  h_S_ : 0 < S_.numel
  bcast_S128x1_S128x20_0_1 : S128x1.BroadcastsInDim S128x20 (![0, 1] : Fin 2 → Fin S128x20.rank)
  dot_S1000x2000_S2000x64_S1000x64_1_0_0_1_n_n_wf : DotDims.WF S1000x2000 S2000x64 S1000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S1000x64_S64x64_S1000x64_1_0_0_1_n_n_wf : DotDims.WF S1000x64 S64x64 S1000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x20_S128x20_1_0_0_1_n_n_wf : DotDims.WF S128x64 S64x20 S128x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2000.size a ≤ S100000x2000.size a
  hwx0_0 : ∀ i : grid0.Coords, EltTy.bits .f32 = 32 ∨ (Rect.block (s := S100000x2000) S1000x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S2000x64.size a
  hwx0_1 : ∀ i : grid0.Coords, EltTy.bits .f32 = 32 ∨ (Rect.block (s := S2000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S100000x64.size a
  hwx0_2 : ∀ i : grid0.Coords, EltTy.bits .f32 = 32 ∨ (Rect.block (s := S100000x64) S1000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S100000x64.size a
  hwx1_0 : ∀ i : grid1.Coords, EltTy.bits .f32 = 32 ∨ (Rect.block (s := S100000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S100000x64.size a
  hwx1_2 : ∀ i : grid1.Coords, EltTy.bits .f32 = 32 ∨ (Rect.block (s := S100000x64) S1000x64.size (cc1_transform_2 i) (hinb1_2 i)).WholeWords (EltTy.packing .f32)

variable [Facts₀]

def dot_S1000x2000_S2000x64_S1000x64_1_0_0_1_n_n : DotDims S1000x2000 S2000x64 S1000x64 where
  lhsContracting := [1]
  rhsContracting := [0]
  lhsNonContracting := [0]
  rhsNonContracting := [1]
  lhsBatch := []
  rhsBatch := []
  wf := dot_S1000x2000_S2000x64_S1000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x20_S128x20_1_0_0_1_n_n : DotDims S128x64 S64x20 S128x20 where
  lhsContracting := [1]
  rhsContracting := [0]
  lhsNonContracting := [0]
  rhsNonContracting := [1]
  lhsBatch := []
  rhsBatch := []
  wf := dot_S128x64_S64x20_S128x20_1_0_0_1_n_n_wf

abbrev win0_0 : Pipeline.Window sig grid0 :=
  Pipeline.Window.ofSpec (Memref.whole main_arg0) S1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x2000 : Shape := ⟨2, ![100000, 2000]⟩
abbrev S2000x64 : Shape := ⟨2, ![2000, 64]⟩
abbrev S64 : Shape := ⟨1, ![64]⟩
abbrev S64x64 : Shape := ⟨2, ![64, 64]⟩
abbrev S64x20 : Shape := ⟨2, ![64, 20]⟩
abbrev S20 : Shape := ⟨1, ![20]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S128x64 : Shape := ⟨2, ![128, 64]⟩
abbrev S128 : Shape := ⟨1, ![128]⟩
abbrev S128x1 : Shape := ⟨2, ![128, 1]⟩
abbrev S128x20 : Shape := ⟨2, ![128, 20]⟩
abbrev S1x20 : Shape := ⟨2, ![1, 20]⟩

abbrev nBuf : Space → Nat
  | .hbm => 162
  | .vmem => 0
  | .smem => 0
  | _ => 0

abbrev hbmTy0_0 (i : Nat) : BufTy := match i % 128 with
  | 0 => ⟨S100000x2000, .f32⟩
  | 1 => ⟨S2000x64, .f32⟩
  | 2 => ⟨S64, .f32⟩
  | 3 => ⟨S64x64, .f32⟩
  | 4 => ⟨S64, .f32⟩
  | 5 => ⟨S64x20, .f32⟩
  | 6 => ⟨S20, .f32⟩
  | 7 => ⟨S2x3200000, .i32⟩
  | 8 => ⟨S100000, .i32⟩
  | 9 => ⟨S1x3200000, .i32⟩
  | 10 => ⟨S3200000, .i32⟩
  | 11 => ⟨S1x3200000, .i32⟩
  | 12 => ⟨S3200000, .i32⟩
  | 13 => ⟨S100000x64, .f32⟩
  | 14 => ⟨S_, .f32⟩
  | 15 => ⟨S3200000, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x64, .f32⟩
  | 52 => ⟨S3200000x1, .f32⟩
  | 53 => ⟨S3200000x64, .f32⟩
  | 54 => ⟨S3200000x64, .f32⟩
  | 55 => ⟨S_, .f32⟩
  | 56 => ⟨S100000x64, .f32⟩
  | 57 => ⟨S3200000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .f32⟩
  | 72 => ⟨S3200000, .f32⟩
  | 73 => ⟨S_, .f32⟩
  | 74 => ⟨S100000, .f32⟩
  | 75 => ⟨S3200000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000, .f32⟩
  | 99 => ⟨S3200000, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x64, .f32⟩
  | 109 => ⟨S3200000x1, .f32⟩
  | 110 => ⟨S3200000x64, .f32⟩
  | 111 => ⟨S3200000x64, .f32⟩
  | 112 => ⟨S_, .f32⟩
  | 113 => ⟨S100000x64, .f32⟩
  | 114 => ⟨S3200000x1, .i32⟩
  | 115 => ⟨S100000x64, .f32⟩
  | 116 => ⟨S100000, .f32⟩
  | 117 => ⟨S100000x1, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .f32⟩
  | _ => ⟨S100000x2000, .f32⟩

abbrev hbmTy0_1 (i : Nat) : BufTy := match i % 128 with
  | 0 => ⟨S128x64, .f32⟩
  | 1 => ⟨S100000x1, .i32⟩
  | 2 => ⟨S128x64, .f32⟩
  | 3 => ⟨S_, .f32⟩
  | 4 => ⟨S100000, .f32⟩
  | 5 => ⟨S_, .f32⟩
  | 6 => ⟨S128, .f32⟩
  | 7 => ⟨S100000x1, .i32⟩
  | 8 => ⟨S128, .f32⟩
  | 9 => ⟨S_, .f32⟩
  | 10 => ⟨S128, .f32⟩
  | 11 => ⟨S128, .f32⟩
  | 12 => ⟨S128x1, .f32⟩
  | 13 => ⟨S128x64, .f32⟩
  | 14 => ⟨S128x64, .f32⟩
  | 15 => ⟨S128x20, .f32⟩
  | 16 => ⟨S1x20, .f32⟩
  | 17 => ⟨S128x20, .f32⟩
  | 18 => ⟨S128x20, .f32⟩
  | 19 => ⟨S_, .f32⟩
  | 20 => ⟨S128, .f32⟩
  | 21 => ⟨S_, .f32⟩
  | 22 => ⟨S128, .f32⟩
  | 23 => ⟨S128, .f32⟩
  | 24 => ⟨S128x1, .f32⟩
  | 25 => ⟨S128x20, .f32⟩
  | 26 => ⟨S128x20, .f32⟩
  | 27 => ⟨S128x20, .f32⟩
  | 28 => ⟨S_, .f32⟩
  | 29 => ⟨S128, .f32⟩
  | 30 => ⟨S128x1, .f32⟩
  | 31 => ⟨S128x1, .f32⟩
  | 32 => ⟨S128x20, .f32⟩
  | 33 => ⟨S128x20, .f32⟩
  | _ => ⟨S100000x2000, .f32⟩

abbrev hbmTy (i : Nat) : BufTy := match i / 128 with
  | 0 => hbmTy0_0 i
  | 1 => hbmTy0_1 i
  | _ => ⟨S100000x2000, .f32⟩

abbrev bufTy : (tb : Table) → Fin (tcTables nBuf tb) → BufTy
  | .hbm, ⟨i, _⟩ => hbmTy i
  | _, _ => ⟨S100000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_call2_cst : Ref sig .tc := ⟨.hbm, 147, rfl⟩
abbrev main_call2_v0 : Ref sig .tc := ⟨.hbm, 148, rfl⟩
abbrev main_call2_cst_0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_cst_1 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_v110 : Ref sig .tc := ⟨.hbm, 161, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S20_S1x20_1 : S20.BroadcastsInDim S1x20 (![1] : Fin 1 → Fin S1x20.rank)
  bcast_S1x20_S128x20_0_1 : S1x20.BroadcastsInDim S128x20 (![0, 1] : Fin 2 → Fin S128x20.rank)
  reducesTo_S128x20_S128_d1 : S128x20.ReducesTo [1] S128
  h_S_ : 0 < S_.numel
  bcast_S128x1_S128x20_0_1 : S128x1.BroadcastsInDim S128x20 (![0, 1] : Fin 2 → Fin S128x20.rank)
  dot_S100000x2000_S2000x64_S100000x64_1_0_0_1_n_n_wf : DotDims.WF S100000x2000 S2000x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x20_S128x20_1_0_0_1_n_n_wf : DotDims.WF S128x64 S64x20 S128x20 [1] [0] [0] [1] [] []

variable [Facts₀]

def dot_S100000x2000_S2000x64_S100000x64_1_0_0_1_n_n : DotDims S100000x2000 S2000x64 S100000x64 where
  lhsContracting := [1]
  rhsContracting := [0]
  lhsNonContracting := [0]
  rhsNonContracting := [1]
  lhsBatch := []
  rhsBatch := []
  wf := dot_S100000x2000_S2000x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x20_S128x20_1_0_0_1_n_n : DotDims S128x64 S64x20 S128x20 where
  lhsContracting := [1]
  rhsContracting := [0]
  lhsNonContracting := [0]
  rhsNonContracting := [1]
  lhsBatch := []
  rhsBatch := []
  wf := dot_S128x64_S64x20_S128x20_1_0_0_1_n_n_wf

class Facts : Prop extends Facts₀ where

variable [Facts]
-- ==== Proof.KernelLine.lean ====
/-
  The idealized kernel's @main read as ONE line of host operations.

  Each of the two matrix-product regions leaves, in its result array, what a host `dot_general` of its two operand
  arrays would have written there, and leaves every other buffer as it found it. So the buffer contents after the whole
  program are the contents after a single straight line: the program's own host operations, in order, with one binary
  operation — the whole-array product — standing where each region stood.
-/
import proofs.«156851_j81836306858614_1_alg».proof.Proof.Gen.KernelIdeal.Launch
import proofs.«156851_j81836306858614_1_alg».proof.Proof.Gen.ReferenceIdeal
import Idealize.ShloMosaic.Lib.StableHlo.Run

noncomputable section

namespace Cert.KernelIdeal.Line

open Cert.KernelIdeal Cert.KernelIdeal.Gen Idealize.ShloMosaic Idealize.ShloMosaic.TcCoe Idealize.SL.Sem

variable {F : FTy → Type} [FloatOps F]

/-- The first region as a host operation: `x · W1` over the whole arrays, written to the region's result array. -/
abbrev prod0 : HloOp τ sig (Elt F) :=
  StableHlo.binary main_arg0 main_arg1 main_v4
    ((fun l r => Host.dotGeneral Cert.ReferenceIdeal.dot_S100000x2000_S2000x64_S100000x64_1_0_0_1_n_n none l r) :
      (⟨S100000x2000, .f32⟩ : BufTy).Contents (Elt F) → (⟨S2000x64, .f32⟩ : BufTy).Contents (Elt F) → (⟨S100000x64, .f32⟩ : BufTy).Contents (Elt F))

/-- The second region as a host operation: `h · W2` over the whole arrays. -/
abbrev prod1 : HloOp τ sig (Elt F) :=
  StableHlo.binary main_v48 main_arg3 main_v49
    ((fun l r => Host.dotGeneral Cert.ReferenceIdeal.dot_S100000x64_S64x64_S100000x64_1_0_0_1_n_n none l r) :
      (⟨S100000x64, .f32⟩ : BufTy).Contents (Elt F) → (⟨S64x64, .f32⟩ : BufTy).Contents (Elt F) → (⟨S100000x64, .f32⟩ : BufTy).Contents (Elt F))

/-- The program as one line: its stretches of host operations in order, a product where each region stood. -/
def line : List (HloOp τ sig (Elt F)) :=
  hostOps0 ++ prod0 :: (hostOps1 ++ hostOps1_1 ++ prod1 :: (hostOps2 ++ hostOps2_1 ++ hostOps2_2 ++ hostOps2_3))

end Cert.KernelIdeal.Line

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.RegionValue.lean ====
/-
  Each of the two matrix-product regions leaves, in its result array, the product of its two whole operand arrays.

  A region has a grid of 100 points. Point t reads rows 1000·t … 1000·t + 999 of the left operand and the whole right
  operand, multiplies them from a zero accumulator, and writes the 1000 × 64 result as rows 1000·t … 1000·t + 999 of
  the result array. At the exact extended-real values a change of float format is the identity, so entry (p, q) of the
  block is the sum over d of (left block at (p, d)) · (right operand at (d, q)); the left block's row p is row
  1000·t + p of the whole left operand, so this is entry (1000·t + p, q) of the whole product. Row r of the result is
  covered by point r / 1000, hence the array ends as the whole product everywhere.
-/
import proofs.«156851_j81836306858614_1_alg».proof.Proof.Gen.KernelIdeal.Frame
import proofs.«156851_j81836306858614_1_alg».proof.Proof.Gen.ReferenceIdeal
import proofs.«156851_j81836306858614_1_alg».proof.Proof.LibHostRead
import proofs.«156851_j81836306858614_1_alg».proof.Proof.LibMatmulRead
import Idealize.ShloMosaic.Lib.ValueIdx
import Idealize.ShloMosaic.Lib.Pipeline.Value
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offset of a whole-block access, as a constant function. -/
theorem zero_off : (![0, 0] : Fin 2 → Nat) = fun _ => 0 := funext fun a => by fin_cases a <;> rfl

/-! ## Region 0: the product of the 100000 × 2000 array with the 2000 × 64 array -/

/-- The block indices of the three windows at a point: the left operand's and the result's block row is the point
    itself, the right operand's one block is the whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, q) of what a point stores: the sum over d of the left block at (p, d) times the right block at (d, q). -/
theorem pay0_apply (x0 : Vec Ideal S1000x2000 .f32) (x1 : Vec Ideal S2000x64 .f32) (p : Fin 1000) (q : Fin 64) :
    k0_pay1 (F := Ideal) x0 x1 (ix2 p q) = ∑ d : Fin 2000, x0 (ix2 p d) * x1 (ix2 d q) :=
  matmul_ix2_apply dot_S1000x2000_S2000x64_S1000x64_1_0_0_1_n_n rfl rfl rfl rfl rfl rfl none x0 x1 p q

/-- One entry of a point's block against one entry of the whole product: if row p of the left block is row r of the
    whole left operand and the right block is the whole right operand, then entry (p, q) of what the point stores is
    entry (r, q) of the whole product. -/
theorem point0 (x0 : Vec Ideal S1000x2000 .f32) (x1 : Vec Ideal S2000x64 .f32)
    (A : FVec Ideal S100000x2000 .f32) (B : FVec Ideal S2000x64 .f32)
    (j : S1000x64.Idx) (i : S100000x64.Idx) (p : Fin 1000) (q : Fin 64) (r : Fin 100000)
    (hj : j = ix2 p q) (hi : i = ix2 r q)
    (h0 : ∀ d : Fin 2000, x0 (ix2 p d) = A (ix2 r d)) (h1 : ∀ d : Fin 2000, x1 (ix2 d q) = B (ix2 d q)) :
    k0_pay1 (F := Ideal) x0 x1 j
      = Host.dotGeneral (F := Ideal) Cert.ReferenceIdeal.dot_S100000x2000_S2000x64_S100000x64_1_0_0_1_n_n none A B i := by
  subst hj hi
  refine (pay0_apply x0 x1 p q).trans ?_
  refine Eq.trans ?_ (Cert.HostRead.dotGeneral_ix2_apply
    Cert.ReferenceIdeal.dot_S100000x2000_S2000x64_S100000x64_1_0_0_1_n_n rfl rfl rfl rfl rfl rfl none A B r q).symm
  exact Finset.sum_congr rfl fun d _ => by rw [h0 d, h1 d]

/-- Row p of the left operand's block at point t is row 1000·t + p of the whole left operand. -/
theorem left0_apply (c : Dev nD) (t : Fin cfg0.N) (y : S1000x2000.Idx) (k : S100000x2000.Idx)
    (hk0 : (k 0).val = 1000 * t.val + (y 0).val) (hk1 : (k 1).val = (y 1).val) :
    (iblk0 V c 0 t : Vec Ideal S1000x2000 .f32) y = (V c main_arg0 : FVec Ideal S100000x2000 .f32) k := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t 0 * 1000 + 1 * (y 0).val = (k 0).val; rw [e0, hk0]; omega
  | ⟨1, _⟩ => show win0_0.index t 1 * 2000 + 1 * (y 1).val = (k 1).val; rw [e1, hk1]; omega

/-- The right operand's block at every point is the whole right operand. -/
theorem right0_apply (c : Dev nD) (t : Fin cfg0.N) (y : S2000x64.Idx) :
    (iblk0 V c 1 t : Vec Ideal S2000x64 .f32) y = (V c main_arg1 : FVec Ideal S2000x64 .f32) y := by
  obtain ⟨-, -, e2, e3, -⟩ := idx0 t
  unfold iblk0
  rw [View.read_apply]
  show V c main_arg1 _ = V c main_arg1 _
  refine congrArg _ (funext fun a => Fin.ext ?_)
  match a with
  | ⟨0, _⟩ => show win0_1.index t 0 * 2000 + 1 * (y 0).val = (y 0).val; rw [e2]; omega
  | ⟨1, _⟩ => show win0_1.index t 1 * 64 + 1 * (y 1).val = (y 1).val; rw [e3]; omega

/-- What point t writes back is its block of rows of the whole product. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32)
        Cert.ReferenceIdeal.dot_S100000x2000_S2000x64_S100000x64_1_0_0_1_n_n none (V c main_arg0) (V c main_arg1)) := by
  show (cfg0.win 2).cut (grid0.coords t) ((dat0 V c).after 2 t) = _
  rw [after0_2]
  unfold out0_2
  rw [View.canon_unit_zero zero_off]
  simp only [View.ld_unit_zero (S := S1000x2000) zero_off, View.ld_unit_zero (S := S2000x64) zero_off]
  obtain ⟨-, -, -, -, e4, e5⟩ := idx0 t
  have ht : t.val < 100 := lt_of_lt_of_eq t.isLt N_0
  funext j
  have hj0 : (j 0).val < 1000 := (j 0).isLt
  have hj1 : (j 1).val < 64 := (j 1).isLt
  refine point0 (iblk0 V c 0 t) (iblk0 V c 1 t) (V c main_arg0) (V c main_arg1) _ _
    ⟨(j 0).val, hj0⟩ ⟨(j 1).val, hj1⟩ ⟨1000 * t.val + (j 0).val, by omega⟩ ?_ ?_ ?_ ?_
  · funext a; apply Fin.ext
    match a with
    | ⟨0, _⟩ => rfl
    | ⟨1, _⟩ => rfl
  · funext a; apply Fin.ext
    match a with
    | ⟨0, _⟩ => show win0_2.index t 0 * 1000 + 1 * (j 0).val = 1000 * t.val + (j 0).val; rw [e4]; omega
    | ⟨1, _⟩ => show win0_2.index t 1 * 64 + 1 * (j 1).val = (j 1).val; rw [e5]; omega
  · intro d; exact left0_apply V c t _ _ rfl rfl
  · intro d; exact right0_apply V c t _

/-- An index of the result array lies in point t's block exactly when each coordinate is in the block's range. -/
theorem mem_blk0 (t : Fin cfg0.N) (i : S100000x64.Idx) :
    i ∈ ((cfg0.win 2).blk t).view.set ↔ ∀ a : Fin 2, win0_2.index t a * S1000x64.size a ≤ (i a).val
      ∧ (i a).val < win0_2.index t a * S1000x64.size a + S1000x64.size a := by
  show i ∈ ((View.whole main_v4).slice (win0_2.rect t)).set ↔ _
  rw [View.set_slice_whole, Rect.mem_set_unit]
  exact Iff.rfl

/-- Every entry of the result array is written back by some point: row r by point r / 1000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 1000 :=
    ⟨⟨(i 0).val / 1000, by rw [show cfg0.N = 100 from N_0]; omega⟩, rfl⟩
  obtain ⟨-, -, -, -, e4, e5⟩ := idx0 t
  refine ⟨t, flush0_2 t, ?_⟩
  rw [mem_blk0]
  intro a
  match a with
  | ⟨0, _⟩ =>
    show win0_2.index t 0 * 1000 ≤ (i 0).val ∧ (i 0).val < win0_2.index t 0 * 1000 + 1000
    rw [e4, ht]; omega
  | ⟨1, _⟩ =>
    show win0_2.index t 1 * 64 ≤ (i 1).val ∧ (i 1).val < win0_2.index t 1 * 64 + 64
    rw [e5]; omega

/-- The first region's result array ends as the product of its two whole operand arrays. -/
theorem region0_out (c : Dev nD) :
    (dat0 (F := Ideal) V c).arrAt 2 cfg0.N
      = Host.dotGeneral (F := Ideal) (φ₁ := .f32) (φ₂ := .f32)
          Cert.ReferenceIdeal.dot_S100000x2000_S2000x64_S100000x64_1_0_0_1_n_n none (V c main_arg0) (V c main_arg1) :=
  (dat0 (F := Ideal) V c).arrAt_eq_of_cover 2 _ (fun t _ => flushed0_eq V c t) cover0

/-! ## Region 1: the product of the 100000 × 64 array with the 64 × 64 array -/

/-- The block indices of the three windows at a point, as in the first region. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of what a point stores: the sum over d of the left block at (p, d) times the right block at (d, q);
    the reshape of the left block to its own shape changes nothing. -/
theorem pay1_apply (x0 : Vec Ideal S1000x64 .f32) (x1 : Vec Ideal S64x64 .f32) (p : Fin 1000) (q : Fin 64) :
    k1_pay1 (F := Ideal) x0 x1 (ix2 p q) = ∑ d : Fin 64, x0 (ix2 p d) * x1 (ix2 d q) := by
  have e : shapeCast S1000x64 x0 shapeCasts_S1000x64_S1000x64 = x0 := shapeCast_self x0 _
  refine Eq.trans (b := matmul dot_S1000x64_S64x64_S1000x64_1_0_0_1_n_n none
    (truncf .bf16 (shapeCast S1000x64 x0 shapeCasts_S1000x64_S1000x64) bitsLt_bf16_f32) (truncf .bf16 x1 bitsLt_bf16_f32)
    (constant (F := Ideal) S1000x64 .f32 0x00000000#32) (ix2 p q)) rfl ?_
  refine (matmul_ix2_apply dot_S1000x64_S64x64_S1000x64_1_0_0_1_n_n rfl rfl rfl rfl rfl rfl none _ _ p q).trans ?_
  rw [e]
  rfl

/-- One entry of a point's block against one entry of the whole product, as in the first region. -/
theorem point1 (x0 : Vec Ideal S1000x64 .f32) (x1 : Vec Ideal S64x64 .f32)
    (A : FVec Ideal S100000x64 .f32) (B : FVec Ideal S64x64 .f32)
    (j : S1000x64.Idx) (i : S100000x64.Idx) (p : Fin 1000) (q : Fin 64) (r : Fin 100000)
    (hj : j = ix2 p q) (hi : i = ix2 r q)
    (h0 : ∀ d : Fin 64, x0 (ix2 p d) = A (ix2 r d)) (h1 : ∀ d : Fin 64, x1 (ix2 d q) = B (ix2 d q)) :
    k1_pay1 (F := Ideal) x0 x1 j
      = Host.dotGeneral (F := Ideal) Cert.ReferenceIdeal.dot_S100000x64_S64x64_S100000x64_1_0_0_1_n_n none A B i := by
  subst hj hi
  refine (pay1_apply x0 x1 p q).trans ?_
  refine Eq.trans ?_ (Cert.HostRead.dotGeneral_ix2_apply
    Cert.ReferenceIdeal.dot_S100000x64_S64x64_S100000x64_1_0_0_1_n_n rfl rfl rfl rfl rfl rfl none A B r q).symm
  exact Finset.sum_congr rfl fun d _ => by rw [h0 d, h1 d]

/-- Row p of the left operand's block at point t is row 1000·t + p of the whole left operand. -/
theorem left1_apply (c : Dev nD) (t : Fin cfg1.N) (y : S1000x64.Idx) (k : S100000x64.Idx)
    (hk0 : (k 0).val = 1000 * t.val + (y 0).val) (hk1 : (k 1).val = (y 1).val) :
    (iblk1 V c 0 t : Vec Ideal S1000x64 .f32) y = (V c main_v48 : FVec Ideal S100000x64 .f32) k := by
  obtain ⟨e0, e1, -⟩ := idx1 t
  unfold iblk1
  rw [View.read_apply]
  show V c main_v48 _ = V c main_v48 _
  refine congrArg _ (funext fun a => Fin.ext ?_)
  match a with
  | ⟨0, _⟩ => show win1_0.index t 0 * 1000 + 1 * (y 0).val = (k 0).val; rw [e0, hk0]; omega
  | ⟨1, _⟩ => show win1_0.index t 1 * 64 + 1 * (y 1).val = (k 1).val; rw [e1, hk1]; omega

/-- The right operand's block at every point is the whole right operand. -/
theorem right1_apply (c : Dev nD) (t : Fin cfg1.N) (y : S64x64.Idx) :
    (iblk1 V c 1 t : Vec Ideal S64x64 .f32) y = (V c main_arg3 : FVec Ideal S64x64 .f32) y := by
  obtain ⟨-, -, e2, e3, -⟩ := idx1 t
  unfold iblk1
  rw [View.read_apply]
  show V c main_arg3 _ = V c main_arg3 _
  refine congrArg _ (funext fun a => Fin.ext ?_)
  match a with
  | ⟨0, _⟩ => show win1_1.index t 0 * 64 + 1 * (y 0).val = (y 0).val; rw [e2]; omega
  | ⟨1, _⟩ => show win1_1.index t 1 * 64 + 1 * (y 1).val = (y 1).val; rw [e3]; omega

/-- What point t writes back is its block of rows of the whole product. -/
theorem flushed1_eq (c : Dev nD) (t : Fin cfg1.N) :
    (dat1 (F := Ideal) V c).flushed 2 t = ((cfg1.win 2).blk t).view.read (Elt Ideal)
      (Host.dotGeneral (F := Ideal) (φ₁ := .f32) (φ₂ := .f32)
        Cert.ReferenceIdeal.dot_S100000x64_S64x64_S100000x64_1_0_0_1_n_n none (V c main_v48) (V c main_arg3)) := by
  show (cfg1.win 2).cut (grid1.coords t) ((dat1 V c).after 2 t) = _
  rw [after1_2]
  unfold out1_2
  rw [View.canon_unit_zero zero_off]
  simp only [View.ld_unit_zero (S := S1000x64) zero_off, View.ld_unit_zero (S := S64x64) zero_off]
  obtain ⟨-, -, -, -, e4, e5⟩ := idx1 t
  have ht : t.val < 100 := lt_of_lt_of_eq t.isLt N_1
  funext j
  have hj0 : (j 0).val < 1000 := (j 0).isLt
  have hj1 : (j 1).val < 64 := (j 1).isLt
  refine point1 (iblk1 V c 0 t) (iblk1 V c 1 t) (V c main_v48) (V c main_arg3) _ _
    ⟨(j 0).val, hj0⟩ ⟨(j 1).val, hj1⟩ ⟨1000 * t.val + (j 0).val, by omega⟩ ?_ ?_ ?_ ?_
  · funext a; apply Fin.ext
    match a with
    | ⟨0, _⟩ => rfl
    | ⟨1, _⟩ => rfl
  · funext a; apply Fin.ext
    match a with
    | ⟨0, _⟩ => show win1_2.index t 0 * 1000 + 1 * (j 0).val = 1000 * t.val + (j 0).val; rw [e4]; omega
    | ⟨1, _⟩ => show win1_2.index t 1 * 64 + 1 * (j 1).val = (j 1).val; rw [e5]; omega
  · intro d; exact left1_apply V c t _ _ rfl rfl
  · intro d; exact right1_apply V c t _

/-- An index of the result array lies in point t's block exactly when each coordinate is in the block's range. -/
theorem mem_blk1 (t : Fin cfg1.N) (i : S100000x64.Idx) :
    i ∈ ((cfg1.win 2).blk t).view.set ↔ ∀ a : Fin 2, win1_2.index t a * S1000x64.size a ≤ (i a).val
      ∧ (i a).val < win1_2.index t a * S1000x64.size a + S1000x64.size a := by
  show i ∈ ((View.whole main_v49).slice (win1_2.rect t)).set ↔ _
  rw [View.set_slice_whole, Rect.mem_set_unit]
  exact Iff.rfl

/-- Every entry of the result array is written back by some point: row r by point r / 1000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 1000 :=
    ⟨⟨(i 0).val / 1000, by rw [show cfg1.N = 100 from N_1]; omega⟩, rfl⟩
  obtain ⟨-, -, -, -, e4, e5⟩ := idx1 t
  refine ⟨t, flush1_2 t, ?_⟩
  rw [mem_blk1]
  intro a
  match a with
  | ⟨0, _⟩ =>
    show win1_2.index t 0 * 1000 ≤ (i 0).val ∧ (i 0).val < win1_2.index t 0 * 1000 + 1000
    rw [e4, ht]; omega
  | ⟨1, _⟩ =>
    show win1_2.index t 1 * 64 ≤ (i 1).val ∧ (i 1).val < win1_2.index t 1 * 64 + 64
    rw [e5]; omega

/-- The second region's result array ends as the product of its two whole operand arrays. -/
theorem region1_out (c : Dev nD) :
    (dat1 (F := Ideal) V c).arrAt 2 cfg1.N
      = Host.dotGeneral (F := Ideal) (φ₁ := .f32) (φ₂ := .f32)
          Cert.ReferenceIdeal.dot_S100000x64_S64x64_S100000x64_1_0_0_1_n_n none (V c main_v48) (V c main_arg3) :=
  (dat1 (F := Ideal) V c).arrAt_eq_of_cover 2 _ (fun t _ => flushed1_eq V c t) cover1

end Cert.KernelIdeal.RegionValue

end
-- ==== Proof.KernelRun.lean ====
/-
  The idealized kernel's run with EVERY buffer named, and the program read as one line of host operations.

  The generated frame proves that the program terminates and keeps its arguments; the same launch, read at every
  unscoped buffer instead of at the arguments only, says what each buffer holds at the end: the fold `W9` of the
  program's segments over the launch memory. Each region's step of that fold puts the region's arrays at what its
  write-backs leave; since the result array then holds the whole-array product of the two operand arrays, and the
  operands are untouched, the step is the step of one binary host operation. Folding the segments together, the final
  contents are the contents after the single line `Line.line`.
-/
import proofs.«156851_j81836306858614_1_alg».proof.Proof.Gen.KernelIdeal.Frame
import proofs.«156851_j81836306858614_1_alg».proof.Proof.KernelLine
import proofs.«156851_j81836306858614_1_alg».proof.Proof.RegionValue
import Idealize.ShloMosaic.PureOps.Ideal

set_option maxRecDepth 16384

noncomputable section

namespace Cert.KernelIdeal.Line

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every core
    ends at the fold of the program's segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Run

section Value

variable (m : (ℓ : Loc nD τ sig) → Buf (Elt Ideal) ℓ) (ρ : Dev nD → PrngReg)

/-- The first region's step of the fold is the step of the whole-array product `x · W1`: the two operand arrays are
    left as they were, the result array holds the product, and every other buffer is untouched. -/
theorem W2_eq (c : Dev nD) : W2 (F := Ideal) m ρ c = (prod0 (F := Ideal)).result (W1 m ρ c) := by
  funext b
  by_cases h : ∃ w, Proc.devRef .tc (Pipeline.arrRef spec0 w) = b
  · obtain ⟨w, rfl⟩ := h
    rw [W2_arr]
    match w with
    | ⟨0, _⟩ =>
      exact ((dat0 (V1 m ρ) c).arrAt_in 0 rfl _).trans
        ((A_eq0 (V1 m ρ) c 0).trans (StableHlo.binary_result_ne (r := main_arg0) _ _ _ _ _ _ _ _ (by decide)).symm)
    | ⟨1, _⟩ =>
      exact ((dat0 (V1 m ρ) c).arrAt_in 1 rfl _).trans
        ((A_eq0 (V1 m ρ) c 1).trans (StableHlo.binary_result_ne (r := main_arg1) _ _ _ _ _ _ _ _ (by decide)).symm)
    | ⟨2, _⟩ =>
      exact (RegionValue.region0_out (V1 m ρ) c).trans (StableHlo.binary_result main_arg0 main_arg1 main_v4 _ _ _ _ (W1 m ρ c)).symm
  · have hb : b ∉ (prod0 (F := Ideal)).writes := by
      rw [StableHlo.binary_writes, Finset.mem_singleton]
      rintro rfl
      exact h ⟨2, rfl⟩
    rw [HloOp.result_of_not_mem _ _ hb]
    unfold W2 Pipeline.withArrays
    exact dif_neg h

/-- The second region's step is the step of the product `h · W2`. -/
theorem W5_eq (c : Dev nD) : W5 (F := Ideal) m ρ c = (prod1 (F := Ideal)).result (W4 m ρ c) := by
  funext b
  by_cases h : ∃ w, Proc.devRef .tc (Pipeline.arrRef spec1 w) = b
  · obtain ⟨w, rfl⟩ := h
    rw [W5_arr]
    match w with
    | ⟨0, _⟩ =>
      exact ((dat1 (V4 m ρ) c).arrAt_in 0 rfl _).trans
        ((A_eq1 (V4 m ρ) c 0).trans (StableHlo.binary_result_ne (r := main_v48) _ _ _ _ _ _ _ _ (by decide)).symm)
    | ⟨1, _⟩ =>
      exact ((dat1 (V4 m ρ) c).arrAt_in 1 rfl _).trans
        ((A_eq1 (V4 m ρ) c 1).trans (StableHlo.binary_result_ne (r := main_arg3) _ _ _ _ _ _ _ _ (by decide)).symm)
    | ⟨2, _⟩ =>
      exact (RegionValue.region1_out (V4 m ρ) c).trans (StableHlo.binary_result main_v48 main_arg3 main_v49 _ _ _ _ (W4 m ρ c)).symm
  · have hb : b ∉ (prod1 (F := Ideal)).writes := by
      rw [StableHlo.binary_writes, Finset.mem_singleton]
      rintro rfl
      exact h ⟨2, rfl⟩
    rw [HloOp.result_of_not_mem _ _ hb]
    unfold W5 Pipeline.withArrays
    exact dif_neg h

/-- The fold of the program's segments is the fold of the one line. -/
theorem W9_eq_line (c : Dev nD) : W9 (F := Ideal) m ρ c = StableHlo.after (line (F := Ideal)) (W0 m ρ c) := by
  unfold line
  rw [StableHlo.after_append, StableHlo.after_cons, ← W2_eq, StableHlo.after_append, StableHlo.after_append,
    StableHlo.after_cons, ← W5_eq, StableHlo.after_append, StableHlo.after_append, StableHlo.after_append]

/-- The idealized kernel's run, its result named: every weakly fair execution terminates, the result buffer ends at
    the one line's fold over the launch memory read at the result, and the arguments end as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v110) = StableHlo.after (line (F := Ideal)) (W0 m ρ c) (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v110 (by decide))).trans (congrFun (W9_eq_line m ρ c) _),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c)⟩)
    (run_all m ρ)

end Value

end Cert.KernelIdeal.Line

end
-- ==== Proof.BridgeRef.lean ====
/-
  The reference's composed result term is what its own line leaves in the result buffer.

  Fold the reference's line from the result buffer back to the arguments: an operation's result buffer holds its
  function applied to its operands' contents, and every other buffer holds what it held before the operation. The
  closed term over the nine arguments that comes out is, operation for operation, the composed term the reference's
  generated run states. The float values are arbitrary here: the float operations are then plain symbols, and the two
  terms are compared symbol by symbol; the statement is used at the ideal values.
-/
import proofs.«156851_j81836306858614_1_alg».proof.Proof.Gen.ReferenceIdeal.Run

namespace Cert.Bridge

open Idealize.ShloMosaic Idealize.ShloMosaic.TcCoe Idealize.SL.Sem

set_option maxRecDepth 8192 in
set_option maxHeartbeats 61200000 in
/-- From the launch contents, the reference's line leaves its composed result term in the result buffer. -/
theorem ref_result {F : FTy → Type} [FloatOps F]
    (m' : (ℓ : Loc Cert.ReferenceIdeal.nD Cert.ReferenceIdeal.τ Cert.ReferenceIdeal.sig) → Buf (Elt F) ℓ) (c : Dev Cert.ReferenceIdeal.nD) :
    StableHlo.after (Cert.ReferenceIdeal.Value.ops (F := F)) (StableHlo.launchContents m' c) (Proc.devRef .tc Cert.ReferenceIdeal.main_v110)
      = Cert.ReferenceIdeal.Value.res_main_v110 (F := F) m' c := by
  after_results_simp <;> rfl

end Cert.Bridge
-- ==== Proof.Bridge.lean ====
/-
  The kernel's one-line program and the reference compute the same result.

  The kernel's line and the reference's line are the same operations on the same buffers, one after another: the two
  index vectors cut from the edge list, the first dense product, a layer (degrees by a segment sum, their inverse square
  roots gathered along the edges, the normalized aggregation, the self term, the bias, the rectifier), the second dense
  product, the same layer again on the next buffers, then the mean over each graph, the last linear map and the
  log-softmax. What a buffer holds after a line is a closed term over what the buffers held before it: an operation's
  result is its function applied to its operands' contents, and a buffer an operation does not write keeps what it
  held.

  Both lines are cut at the same four places. For each piece, from ANY two starting contents that agree on the buffers
  the piece reads, the two pieces leave equal contents in the buffers later pieces read: folding the piece from each
  such buffer back to the piece's inputs gives the same term on both sides (the two programs' own copies of the shapes
  and of the dimension records are the same literals). Because the starting contents are arbitrary, no piece's term
  ever contains an earlier piece's. Chaining the four pieces from the launch contents, where the nine arguments agree
  by hypothesis, gives equal result buffers; and the reference's result buffer after its whole line is its composed
  result term (the imported lemma on the reference's own line).
-/
import proofs.«156851_j81836306858614_1_alg».proof.Proof.KernelLine
import proofs.«156851_j81836306858614_1_alg».proof.Proof.Gen.ReferenceIdeal.Run
import Idealize.ShloMosaic.PureOps.Ideal
import Idealize.ShloMosaic.Lib.Pipeline.Frame
import proofs.«156851_j81836306858614_1_alg».proof.Proof.BridgeRef

noncomputable section

namespace Cert.Bridge

open Idealize.ShloMosaic Idealize.ShloMosaic.TcCoe Idealize.SL.Sem

/-- Buffer contents over the kernel's buffers, and over the reference's. -/
abbrev VK := Valuation Cert.KernelIdeal.τ Cert.KernelIdeal.sig (Elt Ideal)
abbrev VR := Valuation Cert.ReferenceIdeal.τ Cert.ReferenceIdeal.sig (Elt Ideal)

/-! ## The two lines cut at the same places -/

/-- The kernel's line up to and including the first product. -/
def k1 : List (HloOp Cert.KernelIdeal.τ Cert.KernelIdeal.sig (Elt Ideal)) := Cert.KernelIdeal.Gen.hostOps0 ++ [Cert.KernelIdeal.Line.prod0]
/-- The first layer's aggregation, bias and rectifier. -/
def k2 : List (HloOp Cert.KernelIdeal.τ Cert.KernelIdeal.sig (Elt Ideal)) := Cert.KernelIdeal.Gen.hostOps1 ++ Cert.KernelIdeal.Gen.hostOps1_1
/-- The second product and the second layer's aggregation, bias and rectifier. -/
def k3 : List (HloOp Cert.KernelIdeal.τ Cert.KernelIdeal.sig (Elt Ideal)) := Cert.KernelIdeal.Line.prod1 :: (Cert.KernelIdeal.Gen.hostOps2 ++ Cert.KernelIdeal.Gen.hostOps2_1)
/-- The mean over each graph, the last linear map and the log-softmax. -/
def k4 : List (HloOp Cert.KernelIdeal.τ Cert.KernelIdeal.sig (Elt Ideal)) := Cert.KernelIdeal.Gen.hostOps2_2 ++ Cert.KernelIdeal.Gen.hostOps2_3

/-- The reference's line after its first five operations, and after its first sixty-one. -/
def t1 : List (HloOp Cert.ReferenceIdeal.τ Cert.ReferenceIdeal.sig (Elt Ideal)) := (Cert.ReferenceIdeal.Value.ops (F := Ideal)).drop 5
def t2 : List (HloOp Cert.ReferenceIdeal.τ Cert.ReferenceIdeal.sig (Elt Ideal)) := t1.drop 56
/-- The reference's line cut where the kernel's is: 5, 56, 57 and 35 operations. -/
def r1 : List (HloOp Cert.ReferenceIdeal.τ Cert.ReferenceIdeal.sig (Elt Ideal)) := (Cert.ReferenceIdeal.Value.ops (F := Ideal)).take 5
def r2 : List (HloOp Cert.ReferenceIdeal.τ Cert.ReferenceIdeal.sig (Elt Ideal)) := t1.take 56
def r3 : List (HloOp Cert.ReferenceIdeal.τ Cert.ReferenceIdeal.sig (Elt Ideal)) := t2.take 57
def r4 : List (HloOp Cert.ReferenceIdeal.τ Cert.ReferenceIdeal.sig (Elt Ideal)) := t2.drop 57

/-! ## The pieces, from arbitrary contents -/

set_option maxRecDepth 8192 in
set_option maxHeartbeats 61200000 in
/-- Up to the first product: the two index vectors and the product `x · W1` agree; the arguments still to be read are untouched. -/
theorem stage1 (Vk : VK) (Vr : VR)
    (e_main_arg0 : Vk (Proc.devRef .tc Cert.KernelIdeal.main_arg0) = Vr (Proc.devRef .tc Cert.ReferenceIdeal.main_arg0))
    (e_main_arg1 : Vk (Proc.devRef .tc Cert.KernelIdeal.main_arg1) = Vr (Proc.devRef .tc Cert.ReferenceIdeal.main_arg1))
    (e_main_arg7 : Vk (Proc.devRef .tc Cert.KernelIdeal.main_arg7) = Vr (Proc.devRef .tc Cert.ReferenceIdeal.main_arg7))
    (e_main_arg2 : Vk (Proc.devRef .tc Cert.KernelIdeal.main_arg2) = Vr (Proc.devRef .tc Cert.ReferenceIdeal.main_arg2))
    (e_main_arg3 : Vk (Proc.devRef .tc Cert.KernelIdeal.main_arg3) = Vr (Proc.devRef .tc Cert.ReferenceIdeal.main_arg3))
    (e_main_arg4 : Vk (Proc.devRef .tc Cert.KernelIdeal.main_arg4) = Vr (Proc.devRef .tc Cert.ReferenceIdeal.main_arg4))
    (e_main_arg5 : Vk (Proc.devRef .tc Cert.KernelIdeal.main_arg5) = Vr (Proc.devRef .tc Cert.ReferenceIdeal.main_arg5))
    (e_main_arg6 : Vk (Proc.devRef .tc Cert.KernelIdeal.main_arg6) = Vr (Proc.devRef .tc Cert.ReferenceIdeal.main_arg6))
    (e_main_arg8 : Vk (Proc.devRef .tc Cert.KernelIdeal.main_arg8) = Vr (Proc.devRef .tc Cert.ReferenceIdeal.main_arg8)) :
    (StableHlo.after k1 Vk (Proc.devRef .tc Cert.KernelIdeal.main_v1) = StableHlo.after r1 Vr (Proc.devRef .tc Cert.ReferenceIdeal.main_v1))
      ∧ (StableHlo.after k1 Vk (Proc.devRef .tc Cert.KernelIdeal.main_v3) = StableHlo.after r1 Vr (Proc.devRef .tc Cert.ReferenceIdeal.main_v3))
      ∧ (StableHlo.after k1 Vk (Proc.devRef .tc Cert.KernelIdeal.main_v4) = StableHlo.after r1 Vr (Proc.devRef .tc Cert.ReferenceIdeal.main_v4))
      ∧ (StableHlo.after k1 Vk (Proc.devRef .tc Cert.KernelIdeal.main_arg2) = StableHlo.after r1 Vr (Proc.devRef .tc Cert.ReferenceIdeal.main_arg2))
      ∧ (StableHlo.after k1 Vk (Proc.devRef .tc Cert.KernelIdeal.main_arg3) = StableHlo.after r1 Vr (Proc.devRef .tc Cert.ReferenceIdeal.main_arg3))
      ∧ (StableHlo.after k1 Vk (Proc.devRef .tc Cert.KernelIdeal.main_arg4) = StableHlo.after r1 Vr (Proc.devRef .tc Cert.ReferenceIdeal.main_arg4))
      ∧ (StableHlo.after k1 Vk (Proc.devRef .tc Cert.KernelIdeal.main_arg5) = StableHlo.after r1 Vr (Proc.devRef .tc Cert.ReferenceIdeal.main_arg5))
      ∧ (StableHlo.after k1 Vk (Proc.devRef .tc Cert.KernelIdeal.main_arg6) = StableHlo.after r1 Vr (Proc.devRef .tc Cert.ReferenceIdeal.main_arg6))
      ∧ (StableHlo.after k1 Vk (Proc.devRef .tc Cert.KernelIdeal.main_arg8) = StableHlo.after r1 Vr (Proc.devRef .tc Cert.ReferenceIdeal.main_arg8)) := by
  -- both cuts as literal lists
  simp only [k1, r1, Cert.KernelIdeal.Line.prod0, Cert.KernelIdeal.Line.prod1, Cert.KernelIdeal.Gen.hostOps0, Cert.KernelIdeal.Gen.hostOps1, Cert.KernelIdeal.Gen.hostOps1_1, Cert.KernelIdeal.Gen.hostOps2, Cert.KernelIdeal.Gen.hostOps2_1, Cert.KernelIdeal.Gen.hostOps2_2, Cert.KernelIdeal.Gen.hostOps2_3, List.cons_append, List.nil_append, t1, t2, Cert.ReferenceIdeal.Value.ops, List.drop_succ_cons, List.drop_zero, List.take_succ_cons, List.take_zero]
  -- each buffer: fold back to the stage's inputs, read the inputs on the reference's side, compare
  refine ⟨?_, ?_, ?_, ?_, ?_, ?_, ?_, ?_, ?_⟩ <;>
  (after_results_simp; (simp only [e_main_arg0, e_main_arg1, e_main_arg7, e_main_arg2, e_main_arg3, e_main_arg4, e_main_arg5, e_main_arg6, e_main_arg8] <;> rfl))

set_option maxRecDepth 8192 in
set_option maxHeartbeats 61200000 in
/-- The first layer: normalized aggregation over the edges, self term, bias, rectifier. From equal index vectors, product and bias, the layer's output agrees. -/
theorem stage2 (Vk : VK) (Vr : VR)
    (e_main_v1 : Vk (Proc.devRef .tc Cert.KernelIdeal.main_v1) = Vr (Proc.devRef .tc Cert.ReferenceIdeal.main_v1))
    (e_main_v3 : Vk (Proc.devRef .tc Cert.KernelIdeal.main_v3) = Vr (Proc.devRef .tc Cert.ReferenceIdeal.main_v3))
    (e_main_v4 : Vk (Proc.devRef .tc Cert.KernelIdeal.main_v4) = Vr (Proc.devRef .tc Cert.ReferenceIdeal.main_v4))
    (e_main_arg2 : Vk (Proc.devRef .tc Cert.KernelIdeal.main_arg2) = Vr (Proc.devRef .tc Cert.ReferenceIdeal.main_arg2))
    (e_main_arg3 : Vk (Proc.devRef .tc Cert.KernelIdeal.main_arg3) = Vr (Proc.devRef .tc Cert.ReferenceIdeal.main_arg3))
    (e_main_arg4 : Vk (Proc.devRef .tc Cert.KernelIdeal.main_arg4) = Vr (Proc.devRef .tc Cert.ReferenceIdeal.main_arg4))
    (e_main_arg5 : Vk (Proc.devRef .tc Cert.KernelIdeal.main_arg5) = Vr (Proc.devRef .tc Cert.ReferenceIdeal.main_arg5))
    (e_main_arg6 : Vk (Proc.devRef .tc Cert.KernelIdeal.main_arg6) = Vr (Proc.devRef .tc Cert.ReferenceIdeal.main_arg6))
    (e_main_arg8 : Vk (Proc.devRef .tc Cert.KernelIdeal.main_arg8) = Vr (Proc.devRef .tc Cert.ReferenceIdeal.main_arg8)) :
    (StableHlo.after k2 Vk (Proc.devRef .tc Cert.KernelIdeal.main_v1) = StableHlo.after r2 Vr (Proc.devRef .tc Cert.ReferenceIdeal.main_v1))
      ∧ (StableHlo.after k2 Vk (Proc.devRef .tc Cert.KernelIdeal.main_v3) = StableHlo.after r2 Vr (Proc.devRef .tc Cert.ReferenceIdeal.main_v3))
      ∧ (StableHlo.after k2 Vk (Proc.devRef .tc Cert.KernelIdeal.main_v48) = StableHlo.after r2 Vr (Proc.devRef .tc Cert.ReferenceIdeal.main_v48))
      ∧ (StableHlo.after k2 Vk (Proc.devRef .tc Cert.KernelIdeal.main_arg3) = StableHlo.after r2 Vr (Proc.devRef .tc Cert.ReferenceIdeal.main_arg3))
      ∧ (StableHlo.after k2 Vk (Proc.devRef .tc Cert.KernelIdeal.main_arg4) = StableHlo.after r2 Vr (Proc.devRef .tc Cert.ReferenceIdeal.main_arg4))
      ∧ (StableHlo.after k2 Vk (Proc.devRef .tc Cert.KernelIdeal.main_arg5) = StableHlo.after r2 Vr (Proc.devRef .tc Cert.ReferenceIdeal.main_arg5))
      ∧ (StableHlo.after k2 Vk (Proc.devRef .tc Cert.KernelIdeal.main_arg6) = StableHlo.after r2 Vr (Proc.devRef .tc Cert.ReferenceIdeal.main_arg6))
      ∧ (StableHlo.after k2 Vk (Proc.devRef .tc Cert.KernelIdeal.main_arg8) = StableHlo.after r2 Vr (Proc.devRef .tc Cert.ReferenceIdeal.main_arg8)) := by
  -- both cuts as literal lists
  simp only [k2, r2, Cert.KernelIdeal.Line.prod0, Cert.KernelIdeal.Line.prod1, Cert.KernelIdeal.Gen.hostOps0, Cert.KernelIdeal.Gen.hostOps1, Cert.KernelIdeal.Gen.hostOps1_1, Cert.KernelIdeal.Gen.hostOps2, Cert.KernelIdeal.Gen.hostOps2_1, Cert.KernelIdeal.Gen.hostOps2_2, Cert.KernelIdeal.Gen.hostOps2_3, List.cons_append, List.nil_append, t1, t2, Cert.ReferenceIdeal.Value.ops, List.drop_succ_cons, List.drop_zero, List.take_succ_cons, List.take_zero]
  -- each buffer: fold back to the stage's inputs, read the inputs on the reference's side, compare
  refine ⟨?_, ?_, ?_, ?_, ?_, ?_, ?_, ?_⟩ <;>
  (after_results_simp; (simp only [e_main_v1, e_main_v3, e_main_v4, e_main_arg2, e_main_arg3, e_main_arg4, e_main_arg5, e_main_arg6, e_main_arg8] <;> rfl))

set_option maxRecDepth 8192 in
set_option maxHeartbeats 61200000 in
/-- The second product `h · W2` and the second layer, the same operations on the next buffers. -/
theorem stage3 (Vk : VK) (Vr : VR)
    (e_main_v1 : Vk (Proc.devRef .tc Cert.KernelIdeal.main_v1) = Vr (Proc.devRef .tc Cert.ReferenceIdeal.main_v1))
    (e_main_v3 : Vk (Proc.devRef .tc Cert.KernelIdeal.main_v3) = Vr (Proc.devRef .tc Cert.ReferenceIdeal.main_v3))
    (e_main_v48 : Vk (Proc.devRef .tc Cert.KernelIdeal.main_v48) = Vr (Proc.devRef .tc Cert.ReferenceIdeal.main_v48))
    (e_main_arg3 : Vk (Proc.devRef .tc Cert.KernelIdeal.main_arg3) = Vr (Proc.devRef .tc Cert.ReferenceIdeal.main_arg3))
    (e_main_arg4 : Vk (Proc.devRef .tc Cert.KernelIdeal.main_arg4) = Vr (Proc.devRef .tc Cert.ReferenceIdeal.main_arg4))
    (e_main_arg5 : Vk (Proc.devRef .tc Cert.KernelIdeal.main_arg5) = Vr (Proc.devRef .tc Cert.ReferenceIdeal.main_arg5))
    (e_main_arg6 : Vk (Proc.devRef .tc Cert.KernelIdeal.main_arg6) = Vr (Proc.devRef .tc Cert.ReferenceIdeal.main_arg6))
    (e_main_arg8 : Vk (Proc.devRef .tc Cert.KernelIdeal.main_arg8) = Vr (Proc.devRef .tc Cert.ReferenceIdeal.main_arg8)) :
    (StableHlo.after k3 Vk (Proc.devRef .tc Cert.KernelIdeal.main_v93) = StableHlo.after r3 Vr (Proc.devRef .tc Cert.ReferenceIdeal.main_v93))
      ∧ (StableHlo.after k3 Vk (Proc.devRef .tc Cert.KernelIdeal.main_arg5) = StableHlo.after r3 Vr (Proc.devRef .tc Cert.ReferenceIdeal.main_arg5))
      ∧ (StableHlo.after k3 Vk (Proc.devRef .tc Cert.KernelIdeal.main_arg6) = StableHlo.after r3 Vr (Proc.devRef .tc Cert.ReferenceIdeal.main_arg6))
      ∧ (StableHlo.after k3 Vk (Proc.devRef .tc Cert.KernelIdeal.main_arg8) = StableHlo.after r3 Vr (Proc.devRef .tc Cert.ReferenceIdeal.main_arg8)) := by
  -- both cuts as literal lists
  simp only [k3, r3, Cert.KernelIdeal.Line.prod0, Cert.KernelIdeal.Line.prod1, Cert.KernelIdeal.Gen.hostOps0, Cert.KernelIdeal.Gen.hostOps1, Cert.KernelIdeal.Gen.hostOps1_1, Cert.KernelIdeal.Gen.hostOps2, Cert.KernelIdeal.Gen.hostOps2_1, Cert.KernelIdeal.Gen.hostOps2_2, Cert.KernelIdeal.Gen.hostOps2_3, List.cons_append, List.nil_append, t1, t2, Cert.ReferenceIdeal.Value.ops, List.drop_succ_cons, List.drop_zero, List.take_succ_cons, List.take_zero]
  -- each buffer: fold back to the stage's inputs, read the inputs on the reference's side, compare
  refine ⟨?_, ?_, ?_, ?_⟩ <;>
  (after_results_simp; (simp only [e_main_v1, e_main_v3, e_main_v48, e_main_arg3, e_main_arg4, e_main_arg5, e_main_arg6, e_main_arg8] <;> rfl))

set_option maxRecDepth 8192 in
set_option maxHeartbeats 61200000 in
/-- The mean over each graph, the last linear map and the log-softmax. -/
theorem stage4 (Vk : VK) (Vr : VR)
    (e_main_v93 : Vk (Proc.devRef .tc Cert.KernelIdeal.main_v93) = Vr (Proc.devRef .tc Cert.ReferenceIdeal.main_v93))
    (e_main_arg5 : Vk (Proc.devRef .tc Cert.KernelIdeal.main_arg5) = Vr (Proc.devRef .tc Cert.ReferenceIdeal.main_arg5))
    (e_main_arg6 : Vk (Proc.devRef .tc Cert.KernelIdeal.main_arg6) = Vr (Proc.devRef .tc Cert.ReferenceIdeal.main_arg6))
    (e_main_arg8 : Vk (Proc.devRef .tc Cert.KernelIdeal.main_arg8) = Vr (Proc.devRef .tc Cert.ReferenceIdeal.main_arg8)) :
    (StableHlo.after k4 Vk (Proc.devRef .tc Cert.KernelIdeal.main_v110) = StableHlo.after r4 Vr (Proc.devRef .tc Cert.ReferenceIdeal.main_v110)) := by
  -- both cuts as literal lists
  simp only [k4, r4, Cert.KernelIdeal.Line.prod0, Cert.KernelIdeal.Line.prod1, Cert.KernelIdeal.Gen.hostOps0, Cert.KernelIdeal.Gen.hostOps1, Cert.KernelIdeal.Gen.hostOps1_1, Cert.KernelIdeal.Gen.hostOps2, Cert.KernelIdeal.Gen.hostOps2_1, Cert.KernelIdeal.Gen.hostOps2_2, Cert.KernelIdeal.Gen.hostOps2_3, List.cons_append, List.nil_append, t1, t2, Cert.ReferenceIdeal.Value.ops, List.drop_succ_cons, List.drop_zero, List.take_succ_cons, List.take_zero]
  -- each buffer: fold back to the stage's inputs, read the inputs on the reference's side, compare
  (after_results_simp; (simp only [e_main_v93, e_main_arg5, e_main_arg6, e_main_arg8] <;> rfl))

/-! ## Putting the cuts back together -/

/-- Regrouping a line of the kernel's form into four consecutive pieces. -/
theorem regroup {α : Type _} (a : List α) (p : α) (b b' : List α) (q : α) (c c' d e : List α) :
    a ++ p :: (b ++ b' ++ q :: (c ++ c' ++ d ++ e)) = (a ++ [p]) ++ ((b ++ b') ++ ((q :: (c ++ c')) ++ (d ++ e))) := by
  simp

/-- The kernel's line is its four pieces in a row. -/
theorem line_cut : Cert.KernelIdeal.Line.line (F := Ideal) = k1 ++ (k2 ++ (k3 ++ k4)) := by
  unfold Cert.KernelIdeal.Line.line k1 k2 k3 k4
  exact regroup _ _ _ _ _ _ _ _ _

/-- The reference's line is its four pieces in a row. -/
theorem ops_cut : Cert.ReferenceIdeal.Value.ops (F := Ideal) = r1 ++ (r2 ++ (r3 ++ r4)) := by
  rw [r3, r4, List.take_append_drop, r2, t2, List.take_append_drop, r1, t1, List.take_append_drop]

/-- The one-line program's result buffer, from contents that hold the reference's arguments, is the reference's result. -/
theorem line_result
    (Wk : Valuation Cert.KernelIdeal.τ Cert.KernelIdeal.sig (Elt Ideal))
    (m' : (ℓ : Loc Cert.ReferenceIdeal.nD Cert.ReferenceIdeal.τ Cert.ReferenceIdeal.sig) → Buf (Elt Ideal) ℓ)
    (c : Dev Cert.ReferenceIdeal.nD)
    (h0 : Wk (Proc.devRef .tc Cert.KernelIdeal.main_arg0) = m' ((c.tc : Thread Cert.ReferenceIdeal.nD Cert.ReferenceIdeal.τ).loc Cert.ReferenceIdeal.main_arg0))
    (h1 : Wk (Proc.devRef .tc Cert.KernelIdeal.main_arg1) = m' ((c.tc : Thread Cert.ReferenceIdeal.nD Cert.ReferenceIdeal.τ).loc Cert.ReferenceIdeal.main_arg1))
    (h2 : Wk (Proc.devRef .tc Cert.KernelIdeal.main_arg2) = m' ((c.tc : Thread Cert.ReferenceIdeal.nD Cert.ReferenceIdeal.τ).loc Cert.ReferenceIdeal.main_arg2))
    (h3 : Wk (Proc.devRef .tc Cert.KernelIdeal.main_arg3) = m' ((c.tc : Thread Cert.ReferenceIdeal.nD Cert.ReferenceIdeal.τ).loc Cert.ReferenceIdeal.main_arg3))
    (h4 : Wk (Proc.devRef .tc Cert.KernelIdeal.main_arg4) = m' ((c.tc : Thread Cert.ReferenceIdeal.nD Cert.ReferenceIdeal.τ).loc Cert.ReferenceIdeal.main_arg4))
    (h5 : Wk (Proc.devRef .tc Cert.KernelIdeal.main_arg5) = m' ((c.tc : Thread Cert.ReferenceIdeal.nD Cert.ReferenceIdeal.τ).loc Cert.ReferenceIdeal.main_arg5))
    (h6 : Wk (Proc.devRef .tc Cert.KernelIdeal.main_arg6) = m' ((c.tc : Thread Cert.ReferenceIdeal.nD Cert.ReferenceIdeal.τ).loc Cert.ReferenceIdeal.main_arg6))
    (h7 : Wk (Proc.devRef .tc Cert.KernelIdeal.main_arg7) = m' ((c.tc : Thread Cert.ReferenceIdeal.nD Cert.ReferenceIdeal.τ).loc Cert.ReferenceIdeal.main_arg7))
    (h8 : Wk (Proc.devRef .tc Cert.KernelIdeal.main_arg8) = m' ((c.tc : Thread Cert.ReferenceIdeal.nD Cert.ReferenceIdeal.τ).loc Cert.ReferenceIdeal.main_arg8)) :
    StableHlo.after (Cert.KernelIdeal.Line.line (F := Ideal)) Wk (Proc.devRef .tc Cert.KernelIdeal.main_v110)
      = Cert.ReferenceIdeal.Value.res_main_v110 (F := Ideal) m' c := by
  obtain ⟨a1, a3, a4, b2, b3, b4, b5, b6, b8⟩ := stage1 Wk (StableHlo.launchContents m' c) h0 h1 h7 h2 h3 h4 h5 h6 h8
  obtain ⟨c1, c3, c48, d3, d4, d5, d6, d8⟩ := stage2 _ _ a1 a3 a4 b2 b3 b4 b5 b6 b8
  obtain ⟨e93, f5, f6, f8⟩ := stage3 _ _ c1 c3 c48 d3 d4 d5 d6 d8
  have g := stage4 _ _ e93 f5 f6 f8
  -- the kernel's line piece by piece, carried over to the reference's pieces; the reference's result term as its own
  -- line's result, that line piece by piece
  rw [line_cut, StableHlo.after_append, StableHlo.after_append, StableHlo.after_append, g,
    ← ref_result m' c, ops_cut, StableHlo.after_append, StableHlo.after_append, StableHlo.after_append]

end Cert.Bridge

end
-- ==== Proof.lean ====
/-
  A two-layer graph convolution over 100000 nodes and 3200000 edges, mean-pooled into 128 graphs and scored by a
  log-softmax over 20 classes: the kernel against its jnp reference, over the extended reals.

  The two programs are the same straight line of host operations — degree counts by a scatter-add of ones, `rsqrt` of
  the degrees, the edge weights as a product of two gathers, the aggregation as a gather of rows scaled and
  scatter-added, the self-loop term, the bias, the rectifier; twice; then the pooled mean, the classifier and the
  log-softmax — except at the two dense products `x · W1` and `h · W2`. There the reference has one `dot_general` of the
  whole arrays, and the kernel has a region of 100 grid points, point `t` computing rows `1000 t … 1000 t + 999` as the
  product of that block of rows with the whole weight, from a zero accumulator, after a change of float format that is
  the identity on the extended reals. Entry `(r, q)` is `∑ d, x (r, d) · W (d, q)` on both sides (RegionValue), so each
  region's step of the program is the step of one host product (KernelRun), the kernel's final buffers are the fold of
  one line of host operations (KernelLine), and that line and the reference's read the same term at the result
  (Bridge). No law of arithmetic beyond this is used: the two sums have the same terms in the same order, and the
  precondition is never opened.
-/
import proofs.«156851_j81836306858614_1_alg».proof.Defs
import proofs.«156851_j81836306858614_1_alg».proof.Proof.Gen.Kernel
import proofs.«156851_j81836306858614_1_alg».proof.Proof.Gen.Kernel.Skeleton
import proofs.«156851_j81836306858614_1_alg».proof.Proof.Gen.Kernel.Launch
import proofs.«156851_j81836306858614_1_alg».proof.Proof.Gen.Kernel.Points
import proofs.«156851_j81836306858614_1_alg».proof.Proof.Gen.Kernel.Frame
import proofs.«156851_j81836306858614_1_alg».proof.Proof.Gen.KernelIdeal
import proofs.«156851_j81836306858614_1_alg».proof.Proof.Gen.KernelIdeal.Skeleton
import proofs.«156851_j81836306858614_1_alg».proof.Proof.Gen.KernelIdeal.Launch
import proofs.«156851_j81836306858614_1_alg».proof.Proof.Gen.KernelIdeal.Points
import proofs.«156851_j81836306858614_1_alg».proof.Proof.Gen.KernelIdeal.Frame
import proofs.«156851_j81836306858614_1_alg».proof.Proof.Gen.ReferenceIdeal
import proofs.«156851_j81836306858614_1_alg».proof.Proof.Gen.Pre_finite_inputs
import proofs.«156851_j81836306858614_1_alg».proof.Proof.Gen.ReferenceIdeal.Run
import proofs.«156851_j81836306858614_1_alg».proof.Proof.KernelLine
import proofs.«156851_j81836306858614_1_alg».proof.Proof.KernelRun
import proofs.«156851_j81836306858614_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Over the extended reals the kernel's result is the fold of ONE line of host operations over its launch memory — its
    own host operations with the whole-array products `x · W1` and `h · W2` where the two regions stood — and that
    line is, operation by operation, the reference's: from memories that agree on the nine arguments both folds read
    the same composed term at the result. -/
theorem algebraic : Cert.algebraic_KernelIdeal_ReferenceIdeal := by
  intro m ρ m' ρ' _ hagree
  refine ⟨fun c => StableHlo.after (Cert.KernelIdeal.Line.line (F := Ideal)) (Cert.KernelIdeal.Gen.W0 m ρ c)
    (Proc.devRef .tc Cert.KernelIdeal.main_v110), Cert.KernelIdeal.Line.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  exact (Cert.Bridge.line_result (Cert.KernelIdeal.Gen.W0 m ρ c) m' c a0.symm a1.symm a2.symm a3.symm a4.symm a5.symm
    a6.symm a7.symm a8.symm).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
